-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x64 : Shape := ⟨3, ![8, 2048, 64]⟩
abbrev S_ : Shape := ⟨0, ![]⟩

class Facts : Prop where
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel

variable [Facts]

def fn {F : FTy → Type} [FloatOps F] (main_arg0 : FVec F S8x2048x64 .f32) (main_arg1 : FVec F S8x2048x64 .f32) : IVec S_ 1 :=
  let main_v0 : FVec F S8x2048x64 .f32 := Host.absf main_arg0
  let main_cst : FVec F S_ .f32 := constant S_ .f32 0x7F800000#32
  let main_v1 : FVec F S8x2048x64 .f32 := broadcastInDim S8x2048x64 ![] bcast_S_S8x2048x64 main_cst
  let main_v2 : IVec S8x2048x64 1 := cmpf .olt main_v0 main_v1
  let main_c : IVec S_ 1 := constantI S_ 1 1#1
  let main_v3 : IVec S_ 1 := (fun x v => Host.reduce IntOp.andi x v reducesTo_S8x2048x64_S_d0_1_2 h_S_) main_v2 main_c
  let main_v4 : FVec F S8x2048x64 .f32 := Host.absf main_arg1
  let main_cst_0 : FVec F S_ .f32 := constant S_ .f32 0x7F800000#32
  let main_v5 : FVec F S8x2048x64 .f32 := broadcastInDim S8x2048x64 ![] bcast_S_S8x2048x64 main_cst_0
  let main_v6 : IVec S8x2048x64 1 := cmpf .olt main_v4 main_v5
  let main_c_1 : IVec S_ 1 := constantI S_ 1 1#1
  let main_v7 : IVec S_ 1 := (fun x v => Host.reduce IntOp.andi x v reducesTo_S8x2048x64_S_d0_1_2 h_S_) main_v6 main_c_1
  let main_v8 : IVec S_ 1 := andi main_v3 main_v7
  main_v8
-- ==== Kernel.lean ====
abbrev S8x2048x64 : Shape := ⟨3, ![8, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x512x64, .f32⟩
  | .local _ .vmem, ⟨5, _⟩ => ⟨S1x512x64, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S8x2048x64.size a
  hwx0_0 : ∀ i : grid0.Coords, EltTy.bits .f32 = 32 ∨ (Rect.block (s := S8x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S8x2048x64.size a
  hwx0_1 : ∀ i : grid0.Coords, EltTy.bits .f32 = 32 ∨ (Rect.block (s := S8x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S8x2048x64.size a
  hwx0_2 : ∀ i : grid0.Coords, EltTy.bits .f32 = 32 ∨ (Rect.block (s := S8x2048x64) S1x512x64.size (cc0_transform_2 i) (hinb0_2 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x64 : Shape := ⟨3, ![8, 2048, 64]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x2048, .f32⟩
  | .hbm, ⟨3, _⟩ => ⟨S_, .f32⟩
  | .hbm, ⟨4, _⟩ => ⟨S_, .f32⟩
  | .hbm, ⟨5, _⟩ => ⟨S8x2048x2048, .f32⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048x1, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S8x2048x64, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.Consts.lean ====
/-
  The three float words the two programs spell beside their arithmetic, as the extended reals they denote:
  the reference's divisor is the square root of 64.0, which is exactly 8; the kernel's multiplier is 0.125,
  which is exactly 1/8. Dividing an extended real by 8 is multiplying it by 1/8, at the infinities too, so the
  two scalings of the raw scores are one function.
-/
import Idealize.ShloMosaic.PureOps.Ideal

noncomputable section

namespace Cert.Attn.Consts

open Idealize.ShloMosaic

/-- The word `0x42800000` denotes the real 64. -/
theorem ofBits_64 : Ideal.ofBits .f32 0x42800000#32 = ((64 : ℝ) : EReal) := by
  simp [Ideal.ofBits, Ideal.ieee, -EReal.coe_mul]; norm_num

/-- The word `0x3E000000` denotes the real 1/8. -/
theorem ofBits_eighth : Ideal.ofBits .f32 0x3E000000#32 = ((1 / 8 : ℝ) : EReal) := by
  simp [Ideal.ofBits, Ideal.ieee, -EReal.coe_mul]; norm_num

/-- The square root of 64 is 8. -/
theorem sqrt_64 : Ideal.sqrt ((64 : ℝ) : EReal) = ((8 : ℝ) : EReal) := by
  show (if (64 : ℝ) < 0 then (⊥ : EReal) else ((Real.sqrt 64 : ℝ) : EReal)) = _
  rw [if_neg (by norm_num)]
  have h : Real.sqrt 64 = 8 := by
    rw [show (64 : ℝ) = 8 ^ 2 by norm_num]
    exact Real.sqrt_sq (by norm_num)
  rw [h]

/-- Dividing by the square root of the word 64.0 is multiplying by the word 0.125, on every extended real. -/
theorem div_sqrt_64 (x : EReal) :
    Ideal.div x (Ideal.sqrt (Ideal.ofBits .f32 0x42800000#32)) = x * Ideal.ofBits .f32 0x3E000000#32 := by
  rw [ofBits_64, sqrt_64, ofBits_eighth, Ideal.div_coe (by norm_num : (8 : ℝ) ≠ 0)]

end Cert.Attn.Consts

end
-- ==== Proof.Spec.lean ====
/-
  Softmax attention with the keys reused as the values, over [8, 2048, 64] arrays of extended reals, as ONE function
  of the query array Q and the key array K, index by index. For batch b and query row r:
    score j  = (∑ d, Q[b, r, d] · K[b, j, d]) · 0.125                      (one score per key row j)
    top      = max(-∞, the largest score of the row, folded from -∞)
    e j      = exp (score j − top)
    weight j = e j / ∑ k, e k
    out[b, r, d] = ∑ j, weight j · K[b, j, d].
  The float words -∞ and 0.125 are kept as words: both programs spell the same ones.
-/
import Idealize.ShloMosaic.PureOps.Ideal
import Idealize.ShloMosaic.Lib.ValueIdx

noncomputable section

namespace Cert.Attn

open Idealize.ShloMosaic Idealize.ShloMosaic.ValueIdx

/-- An [8, 2048, 64] array of extended reals. -/
abbrev Arr : Type := (⟨3, ![8, 2048, 64]⟩ : Shape).Idx → EReal

/-- The largest entry of a row of 2048 scores: the fold of `max` from the float word -∞, and once more against it. -/
def rowTop (s : Fin 2048 → EReal) : EReal :=
  max (Ideal.ofBits .f32 0xFF800000#32) ((Finset.univ : Finset (Fin 2048)).fold max (Ideal.ofBits .f32 0xFF800000#32) s)

/-- A score's exponential after the row's largest score is subtracted. -/
def rowExp (s : Fin 2048 → EReal) (j : Fin 2048) : EReal := Ideal.exp (s j - rowTop s)

/-- The softmax weight of entry `j` of a row. -/
def weight (s : Fin 2048 → EReal) (j : Fin 2048) : EReal := Ideal.div (rowExp s j) (∑ k : Fin 2048, rowExp s k)

/-- The weighted sum of a column of 2048 values under the row's softmax weights. -/
def mix (s v : Fin 2048 → EReal) : EReal := ∑ j : Fin 2048, weight s j * v j

/-- The scaled score of query row `r` against key row `j`, in batch `b`. -/
def score (Q K : Arr) (b : Fin 8) (r j : Fin 2048) : EReal :=
  (∑ d : Fin 64, Q (ix3 b r d) * K (ix3 b j d)) * Ideal.ofBits .f32 0x3E000000#32

/-- The attention output at batch `b`, row `r`, column `d`. -/
def outAt (Q K : Arr) (b : Fin 8) (r : Fin 2048) (d : Fin 64) : EReal :=
  mix (score Q K b r) (fun j => K (ix3 b j d))

/-- The attention output as an array. -/
def out (Q K : Arr) : Arr := fun i => outAt Q K (i 0) (i 1) (i 2)

theorem out_ix3 (Q K : Arr) (b : Fin 8) (r : Fin 2048) (d : Fin 64) : out Q K (ix3 b r d) = outAt Q K b r d := rfl

end Cert.Attn

end
-- ==== Proof.RefValue.lean ====
/-
  The reference computes `Attn.out` of its two arguments. Read one operation at a time at an index:
  the raw score is the sum over the 64 features of the products, divided by the square root of 64.0 — the product
  with 0.125 (`Consts.div_sqrt_64`); the row's largest score is the host's max-reduce, a fold of `max` from -∞ over
  the 2048 key rows, then `max` against -∞ again; the exponentials of the differences are summed from the word 0.0,
  which is 0; the quotient is the weight; and the last contraction sums the weights against the key array's column.
-/
import proofs.«168004_j223338299939_1_alg».proof.Proof.Gen.ReferenceIdeal.Read
import proofs.«168004_j223338299939_1_alg».proof.Proof.Consts
import proofs.«168004_j223338299939_1_alg».proof.Proof.Spec
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Cert.Attn

variable (Q K : Arr)

/-- The scaled score: the first contraction divided by the square root of 64.0. -/
theorem score_eq (b : Fin 8) (r k : Fin 2048) :
    val_main_v3 (F := Ideal) Q K (ix3 b r k) = score Q K b r k := by
  rw [val_main_v3_apply, val_main_v0_apply, val_main_v2_apply, val_main_v1_apply, val_main_cst_apply]
  simp only [Ideal.hostDivf_def, Ideal.hostUnary_sqrt_def, Ideal.ofBits_def]
  rw [Consts.div_sqrt_64]
  unfold score
  refine congrArg (· * Ideal.ofBits .f32 0x3E000000#32) (Finset.sum_congr rfl fun d _ => ?_)
  have el : lidx_main_v0 (ix3 b r k) d = ix3 b r d :=
    funext fun a => Fin.ext (by match a with | ⟨0, _⟩ => rfl | ⟨1, _⟩ => rfl | ⟨2, _⟩ => rfl)
  have er : ridx_main_v0 (ix3 b r k) d = ix3 b k d :=
    funext fun a => Fin.ext (by match a with | ⟨0, _⟩ => rfl | ⟨1, _⟩ => rfl | ⟨2, _⟩ => rfl)
  rw [el, er]

/-- The row's largest score: the host's max-reduce over the key axis, then `max` against -∞. -/
theorem top_eq (b : Fin 8) (r : Fin 2048) :
    val_main_v6 (F := Ideal) Q K (ix2 b r) = rowTop (score Q K b r) := by
  rw [val_main_v6_apply, val_main_v5_apply, val_main_cst_1_apply]
  unfold val_main_v4
  have h : S8x2048x2048.Reduces [2] S8x2048 := by decide
  rw [Host.reduce_eq_fold_single FloatOps.maximumf _ _ reducesTo_S8x2048x2048_S8x2048_d2 h h_S_ (ix2 b r)]
  have hf : (val_main_v3 (F := Ideal) Q K ∘ h.lift (ix2 b r)) = score Q K b r := by
    refine funext fun (k : Fin 2048) => ?_
    have e : h.lift (ix2 b r) k = ix3 b r k :=
      funext fun a => Fin.ext (by match a with | ⟨0, _⟩ => rfl | ⟨1, _⟩ => rfl | ⟨2, _⟩ => rfl)
    show val_main_v3 (F := Ideal) Q K (h.lift (ix2 b r) k) = _
    rw [e]
    exact score_eq Q K b r k
  rw [hf]
  rfl

/-- The exponential of a score less the row's largest. -/
theorem exp_eq (b : Fin 8) (r k : Fin 2048) :
    val_main_v10 (F := Ideal) Q K (ix3 b r k) = rowExp (score Q K b r) k := by
  rw [val_main_v10_apply, val_main_v9_apply, val_main_v8_apply, val_main_v7_apply]
  have e : idx_main_v7 (idx_main_v8 (ix3 b r k)) = ix2 b r :=
    funext fun a => Fin.ext (by match a with | ⟨0, _⟩ => rfl | ⟨1, _⟩ => rfl)
  rw [e, top_eq, score_eq]
  rfl

/-- The row's sum of exponentials: the host's add-reduce from the word 0.0. -/
theorem sum_eq (b : Fin 8) (r : Fin 2048) :
    val_main_v11 (F := Ideal) Q K (ix2 b r) = ∑ k : Fin 2048, rowExp (score Q K b r) k := by
  rw [val_main_v11_apply, val_main_cst_2_apply]
  simp only [Ideal.ofBits_def]
  rw [Ideal.ofBits_zero_f32, zero_add]
  refine Finset.sum_congr rfl fun k _ => ?_
  have e : idx_main_v11 (ix2 b r) k = ix3 b r k :=
    funext fun a => Fin.ext (by match a with | ⟨0, _⟩ => rfl | ⟨1, _⟩ => rfl | ⟨2, _⟩ => rfl)
  rw [e, exp_eq]

/-- The softmax weight. -/
theorem weight_eq (b : Fin 8) (r k : Fin 2048) :
    val_main_v14 (F := Ideal) Q K (ix3 b r k) = weight (score Q K b r) k := by
  rw [val_main_v14_apply, val_main_v13_apply, val_main_v12_apply]
  have e : idx_main_v12 (idx_main_v13 (ix3 b r k)) = ix2 b r :=
    funext fun a => Fin.ext (by match a with | ⟨0, _⟩ => rfl | ⟨1, _⟩ => rfl)
  rw [e, sum_eq, exp_eq]
  rfl

/-- The reference's result is the attention output of its arguments. -/
theorem result_eq : val_main_v15 (F := Ideal) Q K = out Q K := by
  funext i
  obtain ⟨b, r, d, rfl⟩ : ∃ (b : Fin 8) (r : Fin 2048) (d : Fin 64), i = ix3 b r d := ⟨i 0, i 1, i 2, eq_ix3 i⟩
  rw [val_main_v15_apply, out_ix3]
  unfold outAt mix
  refine Finset.sum_congr rfl fun k _ => ?_
  have el : lidx_main_v15 (ix3 b r d) k = ix3 b r k :=
    funext fun a => Fin.ext (by match a with | ⟨0, _⟩ => rfl | ⟨1, _⟩ => rfl | ⟨2, _⟩ => rfl)
  have er : ridx_main_v15 (ix3 b r d) k = ix3 b k d :=
    funext fun a => Fin.ext (by match a with | ⟨0, _⟩ => rfl | ⟨1, _⟩ => rfl | ⟨2, _⟩ => rfl)
  rw [el, er, weight_eq]

end Cert.ReferenceIdeal.RefValue

end
-- ==== Proof.LibColumn.lean ====
/-
  A vector kept as a column and spread over the columns of a matrix, read at an index: the two layout steps a
  `keepdims` row reduction prints in a kernel body — an [a] vector cast to [a, 1], and an [a, 1] column broadcast to
  [a, b] — and their composite, which at (p, c) is the vector's entry p whatever the column c. Any extents, any
  element type.
-/
import Idealize.ShloMosaic.Lib.Pipeline.Value
import Idealize.ShloMosaic.Lib.ValueIdx

namespace Cert.Lib.Column

open Idealize.ShloMosaic Idealize.ShloMosaic.ValueIdx

variable {α : Type}

/-- An [a] vector cast to the column [a, 1] reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] column broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The composite: an [a] vector kept as a column and spread over b columns reads, at (p, c), the vector at p. -/
theorem column_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Cert.Lib.Column
-- ==== Proof.KernelBody.lean ====
/-
  The kernel body's arithmetic read at an index. The body takes a [512, 64] tile q of queries and the batch's whole
  [2048, 64] key matrix k (both narrowed to bf16, which changes nothing on the extended reals) and stores
    out[p, d] = ∑ j, weight(s_p) j · k[j, d],   s_p j = (∑ e, q[p, e] · k[j, e]) · 0.125,
  with the softmax weights of `Attn.weight`: the first contraction into a zero accumulator is the plain sum over the 64
  features; the lane maximum is the fold of `max` from -∞ over the 2048 key rows, taken against -∞ once more; the
  lane sum into the zero word is the plain sum; each of the two row statistics is kept as a column and spread back over
  the 2048 columns; the second contraction sums over the key rows.
-/
import proofs.«168004_j223338299939_1_alg».proof.Proof.Gen.KernelIdeal.Skeleton
import proofs.«168004_j223338299939_1_alg».proof.Proof.Spec
import proofs.«168004_j223338299939_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen
open Idealize.ShloMosaic Idealize.ShloMosaic.ValueIdx Cert.Attn Cert.Lib.Column

/-! ## The two contractions -/

theorem lhs1_0 (i : S512x2048.Idx) (c : dot_S512x64_S2048x64_S512x2048_1_1_0_0_n_n.contr.Idx) :
    (dot_S512x64_S2048x64_S512x2048_1_1_0_0_n_n.lhsIdx i c 0).val = (i 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl

theorem rhs1_0 (i : S512x2048.Idx) (c : dot_S512x64_S2048x64_S512x2048_1_1_0_0_n_n.contr.Idx) :
    (dot_S512x64_S2048x64_S512x2048_1_1_0_0_n_n.rhsIdx i c 0).val = (i 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl

/-- The raw scores: query row p against key row j, summed over the 64 features. -/
theorem scores_apply (q : FVec Ideal S512x64 .bf16) (kk : FVec Ideal S2048x64 .bf16) (p : Fin 512) (j : Fin 2048) :
    matmul dot_S512x64_S2048x64_S512x2048_1_1_0_0_n_n none q kk (constant (F := Ideal) S512x2048 .f32 0x00000000#32) (ix2 p j)
      = ∑ e : Fin 64, q (ix2 p e) * kk (ix2 j e) := by
  simp only [matmul]
  rw [Ideal.matmul_constant_zero_apply,
    ← Equiv.sum_comp (contrEquiv1 dot_S512x64_S2048x64_S512x2048_1_1_0_0_n_n 64 rfl rfl).symm]
  refine Finset.sum_congr rfl fun e _ => ?_
  have hk := contrEquiv1_symm_val dot_S512x64_S2048x64_S512x2048_1_1_0_0_n_n 64 rfl rfl e
  have el : dot_S512x64_S2048x64_S512x2048_1_1_0_0_n_n.lhsIdx (ix2 p j)
      ((contrEquiv1 dot_S512x64_S2048x64_S512x2048_1_1_0_0_n_n 64 rfl rfl).symm e) = ix2 p e := funext fun a => Fin.ext (by
    match a with
    | ⟨0, _⟩ => exact lhs1_0 _ _
    | ⟨1, _⟩ => exact (dot_S512x64_S2048x64_S512x2048_1_1_0_0_n_n.lhsIdx_val_of_single rfl _ _).trans hk)
  have er : dot_S512x64_S2048x64_S512x2048_1_1_0_0_n_n.rhsIdx (ix2 p j)
      ((contrEquiv1 dot_S512x64_S2048x64_S512x2048_1_1_0_0_n_n 64 rfl rfl).symm e) = ix2 j e := funext fun a => Fin.ext (by
    match a with
    | ⟨0, _⟩ => exact rhs1_0 _ _
    | ⟨1, _⟩ => exact (dot_S512x64_S2048x64_S512x2048_1_1_0_0_n_n.rhsIdx_val_of_single rfl _ _).trans hk)
  rw [el, er]

theorem lhs2_0 (i : S512x64.Idx) (c : dot_S512x2048_S2048x64_S512x64_1_0_0_1_n_n.contr.Idx) :
    (dot_S512x2048_S2048x64_S512x64_1_0_0_1_n_n.lhsIdx i c 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl

theorem rhs2_1 (i : S512x64.Idx) (c : dot_S512x2048_S2048x64_S512x64_1_0_0_1_n_n.contr.Idx) :
    (dot_S512x2048_S2048x64_S512x64_1_0_0_1_n_n.rhsIdx i c 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- The output tile: the weights of row p against column d of the keys, summed over the 2048 key rows. -/
theorem mixed_apply (w : FVec Ideal S512x2048 .bf16) (kk : FVec Ideal S2048x64 .bf16) (p : Fin 512) (d : Fin 64) :
    matmul dot_S512x2048_S2048x64_S512x64_1_0_0_1_n_n none w kk (constant (F := Ideal) S512x64 .f32 0x00000000#32) (ix2 p d)
      = ∑ j : Fin 2048, w (ix2 p j) * kk (ix2 j d) := by
  simp only [matmul]
  rw [Ideal.matmul_constant_zero_apply,
    ← Equiv.sum_comp (contrEquiv1 dot_S512x2048_S2048x64_S512x64_1_0_0_1_n_n 2048 rfl rfl).symm]
  refine Finset.sum_congr rfl fun j _ => ?_
  have hk := contrEquiv1_symm_val dot_S512x2048_S2048x64_S512x64_1_0_0_1_n_n 2048 rfl rfl j
  have el : dot_S512x2048_S2048x64_S512x64_1_0_0_1_n_n.lhsIdx (ix2 p d)
      ((contrEquiv1 dot_S512x2048_S2048x64_S512x64_1_0_0_1_n_n 2048 rfl rfl).symm j) = ix2 p j := funext fun a => Fin.ext (by
    match a with
    | ⟨0, _⟩ => exact lhs2_0 _ _
    | ⟨1, _⟩ => exact (dot_S512x2048_S2048x64_S512x64_1_0_0_1_n_n.lhsIdx_val_of_single rfl _ _).trans hk)
  have er : dot_S512x2048_S2048x64_S512x64_1_0_0_1_n_n.rhsIdx (ix2 p d)
      ((contrEquiv1 dot_S512x2048_S2048x64_S512x64_1_0_0_1_n_n 2048 rfl rfl).symm j) = ix2 j d := funext fun a => Fin.ext (by
    match a with
    | ⟨0, _⟩ => exact (dot_S512x2048_S2048x64_S512x64_1_0_0_1_n_n.rhsIdx_val_of_single rfl _ _).trans hk
    | ⟨1, _⟩ => exact rhs2_1 _ _)
  rw [el, er]

/-! ## The row statistics of a [512, 2048] score tile -/

/-- A row of the tile. -/
abbrev row (s : FVec Ideal S512x2048 .f32) (p : Fin 512) : Fin 2048 → EReal := fun j => s (ix2 p j)

theorem top_apply (s : FVec Ideal S512x2048 .f32) (hφ : FKind.Formats .f32)
    (hacc : (0xFF800000#32 : BitVec 32) = FKind.maximumf.neutral .f32 hφ) (p : Fin 512) :
    maximumf (broadcast S512 (Scalar.ofBits (F := Ideal) .f32 0xFF800000#32))
        (multiReduction .maximumf [1] S512 s 0xFF800000#32 reduces_S512x2048_S512 hφ hacc) (ix1 p)
      = rowTop (row s p) := by
  refine (maximumf_apply _ _ (ix1 p)).trans ?_
  unfold rowTop
  refine congrArg₂ max ((broadcast_apply _ _).trans (Ideal.ofBits_def _)) ?_
  refine (Ideal.multiReduction_maximumf_single s 0xFF800000#32 reduces_S512x2048_S512 hφ hacc (ix1 p)).trans ?_
  have hf : (s ∘ reduces_S512x2048_S512.lift (ix1 p)) = row s p := by
    refine funext fun (j : Fin 2048) => ?_
    have e : reduces_S512x2048_S512.lift (ix1 p) j = ix2 p j :=
      funext fun a => Fin.ext (by match a with | ⟨0, _⟩ => rfl | ⟨1, _⟩ => rfl)
    show s (reduces_S512x2048_S512.lift (ix1 p) j) = _
    rw [e]
  rw [hf, Ideal.ofBits_def]
  rfl

/-- The lane sum into the zero word is the plain sum of the row. -/
theorem sum_apply (s : FVec Ideal S512x2048 .f32) (hφ : FKind.Formats .f32)
    (hacc : (0x00000000#32 : BitVec 32) = FKind.add.neutral .f32 hφ) (p : Fin 512) :
    multiReduction .add [1] S512 s 0x00000000#32 reduces_S512x2048_S512 hφ hacc (ix1 p) = ∑ j : Fin 2048, s (ix2 p j) := by
  refine (Ideal.multiReduction_add_single s 0x00000000#32 reduces_S512x2048_S512 hφ hacc (ix1 p)).trans ?_
  refine Finset.sum_congr rfl fun (j : Fin 2048) _ => ?_
  have e : reduces_S512x2048_S512.lift (ix1 p) j = ix2 p j :=
    funext fun a => Fin.ext (by match a with | ⟨0, _⟩ => rfl | ⟨1, _⟩ => rfl)
  rw [e]

/-- A [512] vector kept as a column and spread over the 2048 columns reads, at (p, j), the vector at p. -/
theorem spread_apply (v : FVec Ideal S512 .f32) (p : Fin 512) (j : Fin 2048) :
    broadcastTo S512x2048 (shapeCast S512x1 v shapeCasts_S512_S512x1) broadcasts_S512x1_S512x2048 (ix2 p j) = v (ix1 p) :=
  column_apply v shapeCasts_S512_S512x1 broadcasts_S512x1_S512x2048 p j

/-- The exponential of a vector at an index. -/
theorem exp_apply {s : Shape} {φ : FTy} (a : FVec Ideal s φ) (i : s.Idx) : exp a i = Ideal.exp (a i) := rfl

end Cert.KernelIdeal.Body

end
-- ==== Proof.KernelTile.lean ====
/-
  The kernel's stored tile as a function of its two loaded blocks. The body's text, cut at its natural joints —
  the scaled scores, the row's largest score, the exponentials, their row sum, the weights, the weighted sum —, is
  read at an index: entry (p, d) of the tile is `Attn.mix` of the scaled scores of query row p and of column d of the
  keys, with the query and key entries read from the blocks through their leading unit axis.
-/
import proofs.«168004_j223338299939_1_alg».proof.Proof.KernelBody

noncomputable section

namespace Cert.KernelIdeal.Body

open Cert.KernelIdeal Cert.KernelIdeal.Gen
open Idealize.ShloMosaic Idealize.ShloMosaic.ValueIdx Cert.Attn Cert.Lib.Column

/-! ## The softmax of a score tile, row by row -/

/-- The rows' largest scores. -/
def topVec (s : FVec Ideal S512x2048 .f32) : FVec Ideal S512 .f32 :=
  maximumf (broadcast S512 (Scalar.ofBits (F := Ideal) .f32 0xFF800000#32))
    (multiReduction .maximumf [1] S512 s 0xFF800000#32 reduces_S512x2048_S512 (.inl rfl) rfl)

/-- A per-row statistic spread back over the 2048 columns. -/
def spread (v : FVec Ideal S512 .f32) : FVec Ideal S512x2048 .f32 :=
  broadcastTo S512x2048 (shapeCast S512x1 v shapeCasts_S512_S512x1) broadcasts_S512x1_S512x2048

/-- The exponentials of the scores less their row's largest. -/
def expTile (s : FVec Ideal S512x2048 .f32) : FVec Ideal S512x2048 .f32 := exp (subf s (spread (topVec s)))

/-- The rows' sums of exponentials. -/
def sumVec (s : FVec Ideal S512x2048 .f32) : FVec Ideal S512 .f32 :=
  multiReduction .add [1] S512 (expTile s) 0x00000000#32 reduces_S512x2048_S512 (.inl rfl) rfl

/-- The softmax weights. -/
def softTile (s : FVec Ideal S512x2048 .f32) : FVec Ideal S512x2048 .f32 := divf (expTile s) (spread (sumVec s))

theorem expTile_apply (s : FVec Ideal S512x2048 .f32) (p : Fin 512) (j : Fin 2048) :
    expTile s (ix2 p j) = rowExp (row s p) j := by
  unfold expTile rowExp
  refine (exp_apply _ _).trans (congrArg Ideal.exp ?_)
  refine (subf_apply _ _ _).trans (congrArg (s (ix2 p j) - ·) ?_)
  unfold spread topVec
  exact (spread_apply _ p j).trans (top_apply s _ _ p)

theorem softTile_apply (s : FVec Ideal S512x2048 .f32) (p : Fin 512) (j : Fin 2048) :
    softTile s (ix2 p j) = weight (row s p) j := by
  unfold softTile weight
  refine (divf_apply _ _ _).trans (congrArg₂ Ideal.div (expTile_apply s p j) ?_)
  unfold spread sumVec
  refine (spread_apply _ p j).trans ((sum_apply _ _ _ p).trans ?_)
  exact Finset.sum_congr rfl fun k _ => expTile_apply s p k

/-! ## The tile -/

/-- The scaled scores of a query tile against the key matrix. -/
def scoreTile (q : FVec Ideal S512x64 .bf16) (kk : FVec Ideal S2048x64 .bf16) : FVec Ideal S512x2048 .f32 :=
  mulf (matmul dot_S512x64_S2048x64_S512x2048_1_1_0_0_n_n none q kk (constant (F := Ideal) S512x2048 .f32 0x00000000#32))
    (broadcast S512x2048 (Scalar.ofBits (F := Ideal) .f32 0x3E000000#32))

theorem scoreTile_apply (q : FVec Ideal S512x64 .bf16) (kk : FVec Ideal S2048x64 .bf16) (p : Fin 512) (j : Fin 2048) :
    scoreTile q kk (ix2 p j) = (∑ e : Fin 64, q (ix2 p e) * kk (ix2 j e)) * Ideal.ofBits .f32 0x3E000000#32 := by
  unfold scoreTile
  exact (mulf_apply _ _ _).trans
    (congrArg₂ (· * ·) (scores_apply q kk p j) ((broadcast_apply _ _).trans (Ideal.ofBits_def _)))

/-- The output tile: the weights, narrowed to bf16, against the key matrix. -/
def outTile (q : FVec Ideal S512x64 .bf16) (kk : FVec Ideal S2048x64 .bf16) : FVec Ideal S512x64 .f32 :=
  matmul dot_S512x2048_S2048x64_S512x64_1_0_0_1_n_n none (truncf .bf16 (softTile (scoreTile q kk)) bitsLt_bf16_f32) kk
    (constant (F := Ideal) S512x64 .f32 0x00000000#32)

theorem outTile_apply (q : FVec Ideal S512x64 .bf16) (kk : FVec Ideal S2048x64 .bf16) (p : Fin 512) (d : Fin 64) :
    outTile q kk (ix2 p d)
      = mix (fun j => (∑ e : Fin 64, q (ix2 p e) * kk (ix2 j e)) * Ideal.ofBits .f32 0x3E000000#32) (fun j => kk (ix2 j d)) := by
  unfold outTile mix
  refine (mixed_apply _ kk p d).trans (Finset.sum_congr rfl fun j _ => ?_)
  refine congrArg (· * kk (ix2 j d)) ?_
  refine (truncf_apply (ψ := .bf16) (softTile (scoreTile q kk)) bitsLt_bf16_f32 (ix2 p j)).trans ((softTile_apply _ p j).trans ?_)
  exact congrArg (fun s => weight s j) (funext fun k => scoreTile_apply q kk p k)

/-- The body's one stored value is the output tile of its two blocks, each with its leading unit axis dropped and
    narrowed to bf16, with the unit axis put back. -/
theorem pay_eq (x0 : Vec Ideal S1x512x64 .f32) (x1 : Vec Ideal S1x2048x64 .f32) :
    k0_pay1 (F := Ideal) x0 x1
      = shapeCast S1x512x64
          (outTile (truncf .bf16 (shapeCast S512x64 x0 shapeCasts_S1x512x64_S512x64) bitsLt_bf16_f32)
            (truncf .bf16 (shapeCast S2048x64 x1 shapeCasts_S1x2048x64_S2048x64) bitsLt_bf16_f32))
          shapeCasts_S512x64_S1x512x64 := rfl

/-- The stored block at (0, p, d): the attention mix of query row p of the first block against the second block. -/
theorem pay_apply (x0 : Vec Ideal S1x512x64 .f32) (x1 : Vec Ideal S1x2048x64 .f32) (p : Fin 512) (d : Fin 64) :
    k0_pay1 (F := Ideal) x0 x1 (ix3 (0 : Fin 1) p d)
      = mix (fun j => (∑ e : Fin 64, x0 (ix3 (0 : Fin 1) p e) * x1 (ix3 (0 : Fin 1) j e)) * Ideal.ofBits .f32 0x3E000000#32)
          (fun j => x1 (ix3 (0 : Fin 1) j d)) := by
  rw [pay_eq]
  refine (shapeCast_ab_1ab_apply _ shapeCasts_S512x64_S1x512x64 0 p d).trans ((outTile_apply _ _ p d).trans ?_)
  have hq : ∀ (r : Fin 512) (e : Fin 64),
      (truncf .bf16 (shapeCast S512x64 x0 shapeCasts_S1x512x64_S512x64 : FVec Ideal S512x64 .f32) bitsLt_bf16_f32
        : FVec Ideal S512x64 .bf16) (ix2 r e) = x0 (ix3 (0 : Fin 1) r e) :=
    fun r e => (truncf_apply (ψ := .bf16) (shapeCast S512x64 x0 shapeCasts_S1x512x64_S512x64 : FVec Ideal S512x64 .f32) bitsLt_bf16_f32 (ix2 r e)).trans
      (shapeCast_1ab_ab_apply x0 shapeCasts_S1x512x64_S512x64 r e)
  have hk : ∀ (r : Fin 2048) (e : Fin 64),
      (truncf .bf16 (shapeCast S2048x64 x1 shapeCasts_S1x2048x64_S2048x64 : FVec Ideal S2048x64 .f32) bitsLt_bf16_f32
        : FVec Ideal S2048x64 .bf16) (ix2 r e) = x1 (ix3 (0 : Fin 1) r e) :=
    fun r e => (truncf_apply (ψ := .bf16) (shapeCast S2048x64 x1 shapeCasts_S1x2048x64_S2048x64 : FVec Ideal S2048x64 .f32) bitsLt_bf16_f32 (ix2 r e)).trans
      (shapeCast_1ab_ab_apply x1 shapeCasts_S1x2048x64_S2048x64 r e)
  simp only [hq, hk]

end Cert.KernelIdeal.Body

end
-- ==== Proof.KernelValue.lean ====
/-
  The kernel's result array after the run is `Attn.out` of its two argument arrays. Grid point (b, g) stages rows
  512·g … 512·g + 511 of batch b of the queries and the whole key matrix of batch b, and writes back rows
  512·g … 512·g + 511 of batch b of the result; entry (0, p, d) of the written block depends on query row 512·g + p and
  on every key row of the batch, and is the attention output at (b, 512·g + p, d). The 8 × 4 written blocks tile the
  result array, so the array ends holding `Attn.out` everywhere.
-/
import proofs.«168004_j223338299939_1_alg».proof.Proof.Gen.KernelIdeal.Value
import proofs.«168004_j223338299939_1_alg».proof.Proof.KernelTile
import Idealize.ShloMosaic.Lib.Pipeline.Value

noncomputable section

namespace Cert.KernelIdeal.Whole

open Cert.KernelIdeal Cert.KernelIdeal.Gen Cert.KernelIdeal.Value
open Idealize.ShloMosaic Idealize.ShloMosaic.TcCoe Idealize.SL.Sem Idealize.ShloMosaic.ValueIdx Cert.Attn
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The stored block of a point whose query block is rows `512·g …` of batch `b` of Q and whose key block is batch
    `b` of K: the attention output's rows `512·g …` of batch `b`. -/
theorem block_eq (Q K : Arr) (x0 : Vec Ideal S1x512x64 .f32) (x1 : Vec Ideal S1x2048x64 .f32) (b : Fin 8) (g : ℕ) (hg : g < 4)
    (h0 : ∀ (p : Fin 512) (e : Fin 64), x0 (ix3 (0 : Fin 1) p e) = Q (ix3 b ⟨g * 512 + p.val, by have := p.isLt; omega⟩ e))
    (h1 : ∀ (j : Fin 2048) (e : Fin 64), x1 (ix3 (0 : Fin 1) j e) = K (ix3 b j e))
    (p : Fin 512) (d : Fin 64) :
    k0_pay1 (F := Ideal) x0 x1 (ix3 (0 : Fin 1) p d) = out Q K (ix3 b ⟨g * 512 + p.val, by have := p.isLt; omega⟩ d) := by
  rw [Body.pay_apply, out_ix3]
  unfold outAt score
  simp only [h0, h1]

/-- The printed index maps, decided over the 32 grid points: the query window moves with the result window, the key
    window follows its batch coordinate only, and the result window's block indices stay in their ranges. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (0 : Fin 3) < 8 ∧ win0_2.index t (1 : Fin 3) < 4 ∧ win0_2.index t (2 : Fin 3) = 0 :=
  (by decide +kernel : ∀ t : Fin grid0.N, _)

/-- Every (batch, row block) pair is some grid point's. -/
theorem idx_onto : ∀ (q0 : Fin 8) (q1 : Fin 4), ∃ t : Fin cfg0.N, win0_2.index t = ![q0.val, q1.val, 0] :=
  (by decide +kernel : ∀ (q0 : Fin 8) (q1 : Fin 4), ∃ t : Fin grid0.N, win0_2.index t = ![q0.val, q1.val, 0])

/-- What point `t` writes back is block `t` of the attention output of the argument arrays. -/
theorem flushed_eq (c : Dev nD) (t : Fin cfg0.N) :
    (dats m 0 c).flushed 2 t
      = ((cfg0.win 2).blk t).view.read (Elt Ideal) (out (V m c main_arg0) (V m c main_arg1)) := by
  rw [Value.flushed2]
  unfold out0_2
  rw [View.canon_unit_zero hz]
  simp only [View.ld_unit_zero (S := S1x512x64) hz, View.ld_unit_zero (S := S1x2048x64) hz]
  obtain ⟨e00, e01, e02, e10, e11, e12, l0, l1, e22⟩ := idx_facts t
  funext y
  obtain ⟨u, p, d, rfl⟩ : ∃ (u : Fin 1) (p : Fin 512) (d : Fin 64), y = ix3 u p d := ⟨y 0, y 1, y 2, eq_ix3 y⟩
  obtain rfl : u = 0 := Subsingleton.elim _ _
  show k0_pay1 (F := Ideal) (iblk m c 0 t) (iblk m c 1 t) (ix3 (0 : Fin 1) p d)
    = out (V m c main_arg0) (V m c main_arg1) (((cfg0.win 2).blk t).view.emb (ix3 (0 : Fin 1) p d))
  have hemb : ((cfg0.win 2).blk t).view.emb (ix3 (0 : Fin 1) p d)
      = ix3 (⟨win0_2.index t (0 : Fin 3), l0⟩ : Fin 8)
          (⟨win0_2.index t (1 : Fin 3) * 512 + p.val, by have := p.isLt; omega⟩ : Fin 2048) d := by
    funext a; apply Fin.ext
    match a with
    | ⟨0, _⟩ => show win0_2.index t (0 : Fin 3) * 1 + 1 * 0 = win0_2.index t (0 : Fin 3); omega
    | ⟨1, _⟩ => show win0_2.index t (1 : Fin 3) * 512 + 1 * p.val = win0_2.index t (1 : Fin 3) * 512 + p.val; omega
    | ⟨2, _⟩ => show win0_2.index t (2 : Fin 3) * 64 + 1 * d.val = d.val; omega
  rw [hemb]
  refine block_eq (V m c main_arg0) (V m c main_arg1) (iblk m c 0 t) (iblk m c 1 t)
    ⟨win0_2.index t (0 : Fin 3), l0⟩ (win0_2.index t (1 : Fin 3)) l1 ?_ ?_ p d
  · intro r e
    show V m c main_arg0 (((cfg0.win 0).blk t).view.emb (ix3 (0 : Fin 1) r e)) = V m c main_arg0 _
    refine congrArg (V m c main_arg0) (funext fun a => Fin.ext ?_)
    match a with
    | ⟨0, _⟩ => show win0_0.index t (0 : Fin 3) * 1 + 1 * 0 = win0_2.index t (0 : Fin 3); omega
    | ⟨1, _⟩ => show win0_0.index t (1 : Fin 3) * 512 + 1 * r.val = win0_2.index t (1 : Fin 3) * 512 + r.val; omega
    | ⟨2, _⟩ => show win0_0.index t (2 : Fin 3) * 64 + 1 * e.val = e.val; omega
  · intro j e
    show V m c main_arg1 (((cfg0.win 1).blk t).view.emb (ix3 (0 : Fin 1) j e)) = V m c main_arg1 _
    refine congrArg (V m c main_arg1) (funext fun a => Fin.ext ?_)
    match a with
    | ⟨0, _⟩ => show win0_1.index t (0 : Fin 3) * 1 + 1 * 0 = win0_2.index t (0 : Fin 3); omega
    | ⟨1, _⟩ => show win0_1.index t (1 : Fin 3) * 2048 + 1 * j.val = j.val; omega
    | ⟨2, _⟩ => show win0_1.index t (2 : Fin 3) * 64 + 1 * e.val = e.val; omega

/-- An index of the result array is in point `t`'s block iff each coordinate is in the block's range on its axis. -/
theorem mem_blk (t : Fin cfg0.N) (i : S8x2048x64.Idx) :
    i ∈ ((cfg0.win 2).blk t).view.set ↔ ∀ a : Fin 3, win0_2.index t a * S1x512x64.size a ≤ (i a).val
      ∧ (i a).val < win0_2.index t a * S1x512x64.size a + S1x512x64.size a := by
  show i ∈ ((View.whole main_v0).slice (win0_2.rect t)).set ↔ _
  rw [View.set_slice_whole, Rect.mem_set_unit]
  exact Iff.rfl

/-- Every index of the result array is in some point's block: the point of its batch and of its row's block of 512. -/
theorem cover (i : S8x2048x64.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 64 ≤ (i 2).val ∧ (i 2).val < win0_2.index t (2 : Fin 3) * 64 + 64; omega

/-- The result array after the run is the attention output of the argument arrays. -/
theorem final (c : Dev nD) :
    (dats m 0 c).arrAt 2 cfg0.N = out (m ((c : Thread nD τ).loc main_arg0)) (m ((c : Thread nD τ).loc main_arg1)) :=
  (dats m 0 c).arrAt_eq_of_cover 2 (out (V m c main_arg0) (V m c main_arg1)) (fun t _ => flushed_eq m c t) cover

/-- The kernel's run, read: the result array at the attention output of the arguments, the arguments unchanged. -/
theorem run : θ_run defs (onTc (τ := τ) (main (F := Ideal))) ⟨m, fun _ => 0, ρ⟩ fun r => ∀ c : Dev nD,
      r.2.mem ((c : Thread nD τ).loc main_v0) = out (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.lean ====
/-
  Softmax attention with the keys reused as the values, [8, 2048, 64] queries and keys: a kernel that computes, per
  grid point, one [512, 64] tile of the output from a [512, 64] tile of queries and the batch's whole [2048, 64] key
  matrix, against the plain formulation over the whole arrays.

  On the extended reals the two programs are one function of (Q, K), `Attn.out` (Proof/Spec.lean):
    out[b, r, d] = ∑ j, w j · K[b, j, d],   w j = exp(s j − top) / ∑ k, exp(s k − top),
    s j = (∑ e, Q[b, r, e] · K[b, j, e]) · 0.125,   top = max(-∞, max over j of s j).
  * The reference divides the raw scores by the square root of 64.0, which is 8; dividing by 8 and multiplying by
    0.125 agree on every extended real (Proof/Consts.lean), and every later step is spelt the same way in both
    programs, so the reference's result is `Attn.out` of its arguments (Proof/RefValue.lean).
  * The kernel's stored tile, read at an index, is the same expression of its two blocks (Proof/KernelBody.lean,
    Proof/KernelTile.lean); the blocks are rows of the arguments and the written tiles cover the result array, so the
    array ends at `Attn.out` of the arguments (Proof/KernelValue.lean).
  No step uses a law that fails at an infinity, so the precondition (finite inputs) is never opened.
  The kernel's idealization rewrote nothing, so there is nothing to preserve; the three frames are the generated ones
  (the reference's is its generated run with the result dropped).
-/
import proofs.«168004_j223338299939_1_alg».proof.Defs
import proofs.«168004_j223338299939_1_alg».proof.Proof.Gen.Kernel
import proofs.«168004_j223338299939_1_alg».proof.Proof.Gen.Kernel.Skeleton
import proofs.«168004_j223338299939_1_alg».proof.Proof.Gen.Kernel.Launch
import proofs.«168004_j223338299939_1_alg».proof.Proof.Gen.Kernel.Points
import proofs.«168004_j223338299939_1_alg».proof.Proof.Gen.Kernel.Frame
import proofs.«168004_j223338299939_1_alg».proof.Proof.Gen.KernelIdeal
import proofs.«168004_j223338299939_1_alg».proof.Proof.Gen.KernelIdeal.Skeleton
import proofs.«168004_j223338299939_1_alg».proof.Proof.Gen.KernelIdeal.Launch
import proofs.«168004_j223338299939_1_alg».proof.Proof.Gen.KernelIdeal.Points
import proofs.«168004_j223338299939_1_alg».proof.Proof.Gen.KernelIdeal.Frame
import proofs.«168004_j223338299939_1_alg».proof.Proof.Gen.ReferenceIdeal
import proofs.«168004_j223338299939_1_alg».proof.Proof.Gen.KernelIdeal.Value
import proofs.«168004_j223338299939_1_alg».proof.Proof.Gen.ReferenceIdeal.Run
import proofs.«168004_j223338299939_1_alg».proof.Proof.Gen.ReferenceIdeal.Read
import proofs.«168004_j223338299939_1_alg».proof.Proof.Gen.Pre_finite_inputs
import proofs.«168004_j223338299939_1_alg».proof.Proof.RefValue
import proofs.«168004_j223338299939_1_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments unchanged: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on Q and K both programs end with the result array at `Attn.out Q K`. -/
theorem algebraic : Cert.algebraic_KernelIdeal_ReferenceIdeal := by
  intro m ρ m' ρ' _ hagree
  refine ⟨fun c => Cert.Attn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
